-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x128 : Shape := ⟨2, ![50000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x512 .f32) (main_arg1 : FVec F S50000x128 .f32) (main_arg2 : IVec S2x1600000 32) (main_arg3 : FVec F S512x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x512 : Shape := ⟨2, ![50000, 512]⟩
abbrev S50000x128 : Shape := ⟨2, ![50000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S2000x512 : Shape := ⟨2, ![2000, 512]⟩
abbrev S2000x128 : Shape := ⟨2, ![2000, 128]⟩
abbrev S1600000x128 : Shape := ⟨2, ![1600000, 128]⟩
abbrev S1x128 : Shape := ⟨2, ![1, 128]⟩
abbrev S50000x1 : Shape := ⟨2, ![50000, 1]⟩
abbrev S2000x1 : Shape := ⟨2, ![2000, 1]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 101
  | .vmem => 38
  | .smem => 0
  | _ => 0

abbrev bufTy : (tb : Table) → Fin (tcTables nBuf tb) → BufTy
  | .hbm, ⟨0, _⟩ => ⟨S50000x512, .f32⟩
  | .hbm, ⟨1, _⟩ => ⟨S50000x128, .f32⟩
  | .hbm, ⟨2, _⟩ => ⟨S2x1600000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S50000, .f32⟩
  | .hbm, ⟨17, _⟩ => ⟨S1600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S50000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S50000x128, .f32⟩
  | .hbm, ⟨58, _⟩ => ⟨S1600000x1, .i32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S1600000x1, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S50000x128, .f32⟩
  | .hbm, ⟨75, _⟩ => ⟨S1600000x1, .i32⟩
  | .hbm, ⟨76, _⟩ => ⟨S50000x128, .f32⟩
  | .hbm, ⟨77, _⟩ => ⟨S1x128, .f32⟩
  | .hbm, ⟨78, _⟩ => ⟨S1x128, .f32⟩
  | .hbm, ⟨79, _⟩ => ⟨S50000x1, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x64, .f32⟩
  | .hbm, ⟨91, _⟩ => ⟨S1600000x1, .f32⟩
  | .hbm, ⟨92, _⟩ => ⟨S1600000x64, .f32⟩
  | .hbm, ⟨93, _⟩ => ⟨S1600000x64, .f32⟩
  | .hbm, ⟨94, _⟩ => ⟨S_, .f32⟩
  | .hbm, ⟨95, _⟩ => ⟨S50000x64, .f32⟩
  | .hbm, ⟨96, _⟩ => ⟨S1600000x1, .i32⟩
  | .hbm, ⟨97, _⟩ => ⟨S50000x64, .f32⟩
  | .hbm, ⟨98, _⟩ => ⟨S1x64, .f32⟩
  | .hbm, ⟨99, _⟩ => ⟨S50000x1, .f32⟩
  | .hbm, ⟨100, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S1x64, .f32⟩
  | .local _ .vmem, ⟨34, _⟩ => ⟨S2000x1, .f32⟩
  | .local _ .vmem, ⟨35, _⟩ => ⟨S2000x1, .f32⟩
  | .local _ .vmem, ⟨36, _⟩ => ⟨S2000x64, .f32⟩
  | .local _ .vmem, ⟨37, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S128x128_S128x128_0_0 : ∀ a, (![0, 0] : Fin 2 → Nat) a + S128x128.size a ≤ S128x128.size a
  h_S128x128 : 0 < S128x128.numel
  shapeCasts_S128_S1x128 : S128.ShapeCasts S1x128
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x512_S512x128_S2000x128_1_0_0_1_n_n_wf : DotDims.WF S2000x512 S512x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .f32 = 32 ∨ (Rect.block (s := S50000x64) S2000x64.size (cc4_transform_4 i) (hinb4_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v72) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v75) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x512 : Shape := ⟨2, ![50000, 512]⟩
abbrev S50000x128 : Shape := ⟨2, ![50000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 182
  | .vmem => 0
  | .smem => 0
  | _ => 0

abbrev hbmTy0_0 (i : Nat) : BufTy := match i % 128 with
  | 0 => ⟨S50000x512, .f32⟩
  | 1 => ⟨S50000x128, .f32⟩
  | 2 => ⟨S2x1600000, .i32⟩
  | 3 => ⟨S512x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S50000x128, .f32⟩
  | 14 => ⟨S_, .f32⟩
  | 15 => ⟨S1600000, .f32⟩
  | 16 => ⟨S_, .f32⟩
  | 17 => ⟨S50000, .f32⟩
  | 18 => ⟨S1600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S1600000, .f32⟩
  | 73 => ⟨S_, .f32⟩
  | 74 => ⟨S50000, .f32⟩
  | 75 => ⟨S1600000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .f32⟩
  | 109 => ⟨S1600000x1, .f32⟩
  | 110 => ⟨S1600000x128, .f32⟩
  | 111 => ⟨S1600000x128, .f32⟩
  | 112 => ⟨S_, .f32⟩
  | 113 => ⟨S50000x128, .f32⟩
  | 114 => ⟨S1600000x1, .i32⟩
  | 115 => ⟨S50000x128, .f32⟩
  | 116 => ⟨S50000, .f32⟩
  | 117 => ⟨S50000x1, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x512, .f32⟩

abbrev hbmTy0_1 (i : Nat) : BufTy := match i % 128 with
  | 0 => ⟨S50000x64, .f32⟩
  | 1 => ⟨S_, .f32⟩
  | 2 => ⟨S1600000, .f32⟩
  | 3 => ⟨S_, .f32⟩
  | 4 => ⟨S50000, .f32⟩
  | 5 => ⟨S1600000x1, .i32⟩
  | 6 => ⟨S50000, .f32⟩
  | 7 => ⟨S_, .f32⟩
  | 8 => ⟨S50000, .f32⟩
  | 9 => ⟨S50000, .f32⟩
  | 10 => ⟨S50000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x64, .f32⟩
  | 39 => ⟨S1600000x1, .f32⟩
  | 40 => ⟨S1600000x64, .f32⟩
  | 41 => ⟨S1600000x64, .f32⟩
  | 42 => ⟨S_, .f32⟩
  | 43 => ⟨S50000x64, .f32⟩
  | 44 => ⟨S1600000x1, .i32⟩
  | 45 => ⟨S50000x64, .f32⟩
  | 46 => ⟨S50000, .f32⟩
  | 47 => ⟨S50000x1, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_18 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_21 : Ref sig .tc := ⟨.hbm, 139, rfl⟩
abbrev main_v103 : Ref sig .tc := ⟨.hbm, 140, rfl⟩
abbrev main_v104 : Ref sig .tc := ⟨.hbm, 141, rfl⟩
abbrev main_c_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_23 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_25 : Ref sig .tc := ⟨.hbm, 158, rfl⟩
abbrev main_v118 : Ref sig .tc := ⟨.hbm, 159, rfl⟩
abbrev main_v119 : Ref sig .tc := ⟨.hbm, 160, rfl⟩
abbrev main_c_26 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_27 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x512_S512x128_S50000x128_1_0_0_1_n_n_wf : DotDims.WF S50000x512 S512x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.WholeRun.lean ====
/-
  The idealized kernel program, run from any launch memory: every weakly fair execution terminates, and the result
  buffer ends holding what the last of the nine segments (four stretches of host operations, five pipelined calls)
  leaves in it — the fold `W9` of the launch memory through the segments —, the nine argument arrays unchanged.
  The statement is the frame's with one more conjunct: the same launch theorem over the same segments, the final
  thread state read at the result buffer as well as at the arguments.
-/
import proofs.«169853_j89249420411436_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: `main_v75` ends at the last boundary's contents, each argument as launched. -/
theorem run : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.Dense0.lean ====
/-
  The first pipelined call: the node features (50000 × 512) times the feature weights (512 × 128), computed one block
  of 2000 rows per grid point. At extended-real values the rounding of both operands to bf16 is the identity and the
  accumulator starts at zero, so each stored entry is the sum over the 512 contracted positions of row entry times
  column entry; the 25 blocks of rows tile the result, so after the call the result array is the whole matrix
  product — the same function of the two arrays as the reference's general dot product of them.
-/
import proofs.«169853_j89249420411436_1_alg».proof.Proof.Gen.KernelIdeal.Frame
import proofs.«169853_j89249420411436_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block of rows times the weight matrix, entry by entry -/

/-- Row `j 0` of the block of rows, at column `k` of the contracted axis. -/
abbrev lrow (j : S2000x128.Idx) (k : Fin 512) : S2000x512.Idx := fun a => match a with
  | ⟨0, _⟩ => ⟨(j 0).val, (j 0).isLt⟩
  | ⟨1, _⟩ => ⟨k.val, k.isLt⟩
/-- Column `j 1` of the weight matrix, at row `k` of the contracted axis. -/
abbrev rcol (j : S2000x128.Idx) (k : Fin 512) : S512x128.Idx := fun a => match a with
  | ⟨0, _⟩ => ⟨k.val, k.isLt⟩
  | ⟨1, _⟩ => ⟨(j 1).val, (j 1).isLt⟩

theorem lhs_0 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_1 (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem rhs_0 (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem rhs_1 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The body's stored value at an entry: the two operands are rounded to bf16 (the identity on extended reals) and
    multiplied into a zero accumulator, so the entry is the plain sum over the contracted axis of row times column. -/
theorem pay_apply (x0 : Vec Ideal S2000x512 .f32) (x1 : Vec Ideal S512x128 .f32) (j : S2000x128.Idx) :
    k0_pay1 (F := Ideal) x0 x1 j = ∑ k : Fin 512, x0 (lrow j k) * x1 (rcol j k) := by
  unfold k0_pay1
  simp only [matmul]
  refine (Ideal.matmul_constant_zero_apply dot_S2000x512_S512x128_S2000x128_1_0_0_1_n_n none _ _ j).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = lrow j k := funext fun a => Fin.ext (by
    match a with
    | ⟨0, _⟩ => exact lhs_0 _ _
    | ⟨1, _⟩ => exact (lhs_1 _ _).trans hk)
  have er : dot_S2000x512_S512x128_S2000x128_1_0_0_1_n_n.rhsIdx j ((ValueIdx.contrEquiv1 dot_S2000x512_S512x128_S2000x128_1_0_0_1_n_n 512 rfl rfl).symm k) = rcol j k := funext fun a => Fin.ext (by
    match a with
    | ⟨0, _⟩ => exact (rhs_0 _ _).trans hk
    | ⟨1, _⟩ => exact rhs_1 _ _)
  rw [el, er]
  rfl

/-! ## From the blocks of rows to the whole product -/

/-- The printed index maps over the grid: point `t` reads block `t` of the rows and the whole weight matrix, and
    writes block `t` of the result's rows. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product of the two arrays as the call finds them. -/
theorem flushed_eq (c : Dev nD) (t : Fin cfg0.N) :
    (dat0 V c).flushed 2 t = ((cfg0.win 2).blk t).view.read (Elt Ideal)
      (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  funext j
  show k0_pay1 (F := Ideal) (iblk0 V c 0 t) (iblk0 V c 1 t) j = (Cert.ReferenceIdeal.Read.val_main_v4 (F := Ideal) (V c main_arg0) (V c main_arg3)) (((cfg0.win 2).blk t).view.emb j)
  refine (pay_apply _ _ j).trans ?_
  refine Eq.trans ?_ (Cert.ReferenceIdeal.Read.val_main_v4_apply _ _ _).symm
  refine Finset.sum_congr rfl fun k _ => ?_
  have h0 : iblk0 V c 0 t (lrow j k) = V c main_arg0 (Cert.ReferenceIdeal.Read.lidx_main_v4 (((cfg0.win 2).blk t).view.emb j) k) := by
    show V c main_arg0 (((cfg0.win 0).blk t).view.emb (lrow j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : iblk0 V c 1 t (rcol j k) = V c main_arg3 (Cert.ReferenceIdeal.Read.ridx_main_v4 (((cfg0.win 2).blk t).view.emb j) k) := by
    show V c main_arg3 (((cfg0.win 1).blk t).view.emb (rcol j k)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]

/-- An entry of the result is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Every entry of the result lies in the block of the point that owns its row: row `r` belongs to point `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨e0, e1, e2, e3, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the call the result array holds the whole product of the two arrays as the call found them. -/
theorem final (c : Dev nD) : (dat0 V c).arrAt 2 cfg0.N = Cert.ReferenceIdeal.Read.val_main_v4 (F := Ideal) (V c main_arg0) (V c main_arg3) :=
  (dat0 V c).arrAt_eq_of_cover 2 _ (fun t _ => flushed_eq V c t) cover

end Cert.KernelIdeal.Dense0

end
-- ==== Proof.StageA.lean ====
/-
  The kernel program's buffers at the first two boundaries between its segments, each as the reference's stage of
  the launch arguments. The first stretch of host operations splits the edge list into source and destination nodes,
  counts each node's incoming edges by a scatter-addition of ones, adds one for the self-loop, takes the inverse
  square root, squares it, and multiplies the inverse roots gathered at each edge's two ends: the same operations on
  the same array as the reference's, so each buffer is the reference's stage by unfolding. The first pipelined call
  then leaves the product of the node features and the feature weights in its result and touches nothing else.
-/
import proofs.«169853_j89249420411436_1_alg».proof.Proof.Gen.KernelIdeal.Frame
import proofs.«169853_j89249420411436_1_alg».proof.Proof.Gen.ReferenceIdeal.Read
import proofs.«169853_j89249420411436_1_alg».proof.Proof.Dense0
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the first stretch of host operations -/

/-- The node features, after the first stretch of host operations. -/
theorem at1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

/-- The feature weights, after the first stretch of host operations. -/
theorem at1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

/-- The structural features, after the first stretch of host operations. -/
theorem at1_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl

/-- The first bias, after the first stretch of host operations. -/
theorem at1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl

/-- The structural weights, after the first stretch of host operations. -/
theorem at1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

/-- The second bias, after the first stretch of host operations. -/
theorem at1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

/-- The hidden weights, after the first stretch of host operations. -/
theorem at1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

/-- The third bias, after the first stretch of host operations. -/
theorem at1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

/-- The edges' source nodes, after the first stretch of host operations. -/
theorem at1_v1 (c : Dev nD) : W1 m ρ c (Proc.devRef .tc main_v1) = val_main_v1 (F := Ideal) (m ((c : Thread nD τ).loc main_arg2)) := by
  show StableHlo.after hostOps0 (W0 m ρ c) (Proc.devRef .tc main_v1) = _
  after_results_simp <;> rfl

/-- The edges' destination nodes, after the first stretch of host operations. -/
theorem at1_v3 (c : Dev nD) : W1 m ρ c (Proc.devRef .tc main_v3) = val_main_v3 (F := Ideal) (m ((c : Thread nD τ).loc main_arg2)) := by
  show StableHlo.after hostOps0 (W0 m ρ c) (Proc.devRef .tc main_v3) = _
  after_results_simp <;> rfl

/-- The per-edge coefficients, after the first stretch of host operations. -/
theorem at1_v26 (c : Dev nD) : W1 m ρ c (Proc.devRef .tc main_v26) = val_main_v26 (F := Ideal) (m ((c : Thread nD τ).loc main_arg2)) := by
  show StableHlo.after hostOps0 (W0 m ρ c) (Proc.devRef .tc main_v26) = _
  after_results_simp <;> rfl

/-- The squared inverse root degrees, after the first stretch of host operations. -/
theorem at1_v11 (c : Dev nD) : W1 m ρ c (Proc.devRef .tc main_v11) = val_main_v40 (F := Ideal) (m ((c : Thread nD τ).loc main_arg2)) := by
  show StableHlo.after hostOps0 (W0 m ρ c) (Proc.devRef .tc main_v11) = _
  after_results_simp <;> rfl

/-! ## After the first pipelined call -/

/-- The first transformed features, what this call's write-backs leave. -/
theorem at2_v27 (c : Dev nD) : W2 m ρ c (Proc.devRef .tc main_v27) = val_main_v4 (F := Ideal) (m ((c : Thread nD τ).loc main_arg0)) (m ((c : Thread nD τ).loc main_arg3)) := by
  refine (W2_arr m ρ c 2).trans ((Dense0.final (V1 m ρ) c).trans ?_)
  dsimp only [V1]
  rw [at1_arg0 m ρ c, at1_arg3 m ρ c]

/-- The structural features, not an array of this call. -/
theorem at2_arg1 (c : Dev nD) : W2 m ρ c (Proc.devRef .tc main_arg1) = (m ((c : Thread nD τ).loc main_arg1)) :=
  (W2_of_ne m ρ c main_arg1 (by decide)).trans (at1_arg1 m ρ c)

/-- The first bias, not an array of this call. -/
theorem at2_arg4 (c : Dev nD) : W2 m ρ c (Proc.devRef .tc main_arg4) = (m ((c : Thread nD τ).loc main_arg4)) :=
  (W2_of_ne m ρ c main_arg4 (by decide)).trans (at1_arg4 m ρ c)

/-- The structural weights, not an array of this call. -/
theorem at2_arg5 (c : Dev nD) : W2 m ρ c (Proc.devRef .tc main_arg5) = (m ((c : Thread nD τ).loc main_arg5)) :=
  (W2_of_ne m ρ c main_arg5 (by decide)).trans (at1_arg5 m ρ c)

/-- The second bias, not an array of this call. -/
theorem at2_arg6 (c : Dev nD) : W2 m ρ c (Proc.devRef .tc main_arg6) = (m ((c : Thread nD τ).loc main_arg6)) :=
  (W2_of_ne m ρ c main_arg6 (by decide)).trans (at1_arg6 m ρ c)

/-- The hidden weights, not an array of this call. -/
theorem at2_arg7 (c : Dev nD) : W2 m ρ c (Proc.devRef .tc main_arg7) = (m ((c : Thread nD τ).loc main_arg7)) :=
  (W2_of_ne m ρ c main_arg7 (by decide)).trans (at1_arg7 m ρ c)

/-- The third bias, not an array of this call. -/
theorem at2_arg8 (c : Dev nD) : W2 m ρ c (Proc.devRef .tc main_arg8) = (m ((c : Thread nD τ).loc main_arg8)) :=
  (W2_of_ne m ρ c main_arg8 (by decide)).trans (at1_arg8 m ρ c)

/-- The edges' source nodes, not an array of this call. -/
theorem at2_v1 (c : Dev nD) : W2 m ρ c (Proc.devRef .tc main_v1) = val_main_v1 (F := Ideal) (m ((c : Thread nD τ).loc main_arg2)) :=
  (W2_of_ne m ρ c main_v1 (by decide)).trans (at1_v1 m ρ c)

/-- The edges' destination nodes, not an array of this call. -/
theorem at2_v3 (c : Dev nD) : W2 m ρ c (Proc.devRef .tc main_v3) = val_main_v3 (F := Ideal) (m ((c : Thread nD τ).loc main_arg2)) :=
  (W2_of_ne m ρ c main_v3 (by decide)).trans (at1_v3 m ρ c)

/-- The per-edge coefficients, not an array of this call. -/
theorem at2_v26 (c : Dev nD) : W2 m ρ c (Proc.devRef .tc main_v26) = val_main_v26 (F := Ideal) (m ((c : Thread nD τ).loc main_arg2)) :=
  (W2_of_ne m ρ c main_v26 (by decide)).trans (at1_v26 m ρ c)

/-- The squared inverse root degrees, not an array of this call. -/
theorem at2_v11 (c : Dev nD) : W2 m ρ c (Proc.devRef .tc main_v11) = val_main_v40 (F := Ideal) (m ((c : Thread nD τ).loc main_arg2)) :=
  (W2_of_ne m ρ c main_v11 (by decide)).trans (at1_v11 m ρ c)

end Cert.KernelIdeal.Stage

end
-- ==== Proof.Dense1.lean ====
/-
  The second pipelined call: the structural features (50000 × 128) times the structural weights (128 × 128), one
  block of 2000 rows per grid point. As for the first product: rounding to bf16 is the identity on extended reals,
  the accumulator starts at zero, each stored entry is the sum over the 128 contracted positions of row entry times
  column entry, and the 25 blocks of rows tile the result — the whole matrix product, the reference's general dot
  product of the same two arrays.
-/
import proofs.«169853_j89249420411436_1_alg».proof.Proof.Gen.KernelIdeal.Frame
import proofs.«169853_j89249420411436_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block of rows times the weight matrix, entry by entry -/

/-- Row `j 0` of the block of rows, at column `k` of the contracted axis. -/
abbrev lrow (j : S2000x128.Idx) (k : Fin 128) : S2000x128.Idx := fun a => match a with
  | ⟨0, _⟩ => ⟨(j 0).val, (j 0).isLt⟩
  | ⟨1, _⟩ => ⟨k.val, k.isLt⟩
/-- Column `j 1` of the weight matrix, at row `k` of the contracted axis. -/
abbrev rcol (j : S2000x128.Idx) (k : Fin 128) : S128x128.Idx := fun a => match a with
  | ⟨0, _⟩ => ⟨k.val, k.isLt⟩
  | ⟨1, _⟩ => ⟨(j 1).val, (j 1).isLt⟩

theorem lhs_0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at an entry: the two operands are rounded to bf16 (the identity on extended reals) and
    multiplied into a zero accumulator, so the entry is the plain sum over the contracted axis of row times column. -/
theorem pay_apply (x0 : Vec Ideal S2000x128 .f32) (x1 : Vec Ideal S128x128 .f32) (j : S2000x128.Idx) :
    k1_pay1 (F := Ideal) x0 x1 j = ∑ k : Fin 128, x0 (lrow j k) * x1 (rcol j k) := by
  unfold k1_pay1
  simp only [matmul]
  refine (Ideal.matmul_constant_zero_apply dot_S2000x128_S128x128_S2000x128_1_0_0_1_n_n none _ _ j).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x128_S2000x128_1_0_0_1_n_n.rhsIdx j ((ValueIdx.contrEquiv1 dot_S2000x128_S128x128_S2000x128_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## From the blocks of rows to the whole product -/

/-- The printed index maps over the grid: point `t` reads block `t` of the rows and the whole weight matrix, and
    writes block `t` of the result's rows. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole product of the two arrays as the call finds them. -/
theorem flushed_eq (c : Dev nD) (t : Fin cfg1.N) :
    (dat1 V c).flushed 2 t = ((cfg1.win 2).blk t).view.read (Elt Ideal)
      (Cert.ReferenceIdeal.Read.val_main_v49 (F := Ideal) (V c main_arg1) (V c main_arg5)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  obtain ⟨e0, e1, e2, e3, e4, e5⟩ := idx_facts t
  funext j
  show k1_pay1 (F := Ideal) (iblk1 V c 0 t) (iblk1 V c 1 t) j = (Cert.ReferenceIdeal.Read.val_main_v49 (F := Ideal) (V c main_arg1) (V c main_arg5)) (((cfg1.win 2).blk t).view.emb j)
  refine (pay_apply _ _ j).trans ?_
  refine Eq.trans ?_ (Cert.ReferenceIdeal.Read.val_main_v49_apply _ _ _).symm
  refine Finset.sum_congr rfl fun k _ => ?_
  have h0 : iblk1 V c 0 t (lrow j k) = V c main_arg1 (Cert.ReferenceIdeal.Read.lidx_main_v49 (((cfg1.win 2).blk t).view.emb j) k) := by
    show V c main_arg1 (((cfg1.win 0).blk t).view.emb (lrow j k)) = _
    refine congrArg (V c main_arg1) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  have h1 : iblk1 V c 1 t (rcol j k) = V c main_arg5 (Cert.ReferenceIdeal.Read.ridx_main_v49 (((cfg1.win 2).blk t).view.emb j) k) := by
    show V c main_arg5 (((cfg1.win 1).blk t).view.emb (rcol j k)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An entry of the result is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v41).slice (win1_2.rect t)).set ↔ _
  rw [View.set_slice_whole, Rect.mem_set_unit]
  exact Iff.rfl

/-- Every entry of the result lies in the block of the point that owns its row: row `r` belongs to point `r / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; omega⟩
  obtain ⟨e0, e1, e2, e3, e4, e5⟩ := idx_facts t
  have e4' : win1_2.index t (0 : Fin 2) = (i 0).val / 2000 := e4
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the call the result array holds the whole product of the two arrays as the call found them. -/
theorem final (c : Dev nD) : (dat1 V c).arrAt 2 cfg1.N = Cert.ReferenceIdeal.Read.val_main_v49 (F := Ideal) (V c main_arg1) (V c main_arg5) :=
  (dat1 V c).arrAt_eq_of_cover 2 _ (fun t _ => flushed_eq V c t) cover

end Cert.KernelIdeal.Dense1

end
-- ==== Proof.StageB.lean ====
/-
  The kernel program's buffers at the third and fourth boundaries. The second stretch of host operations gathers the
  first transformed features at each edge's source (negative indices wrapped by the node count, as jnp indexing
  does), scales each gathered row by the edge's coefficient and scatter-adds the rows into the edge's destination:
  operation for operation the reference's, applied to buffers already identified, so the aggregated messages are the
  reference's stage by unfolding. The second pipelined call then leaves the product of the structural features and the
  structural weights in its result and touches nothing else.
-/
import proofs.«169853_j89249420411436_1_alg».proof.Proof.StageA
import proofs.«169853_j89249420411436_1_alg».proof.Proof.Dense1
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the second stretch of host operations -/

set_option maxHeartbeats 1000000 in
/-- The first aggregated messages, computed by this stretch from buffers already read. -/
theorem at3_v40 (c : Dev nD) : W3 m ρ c (Proc.devRef .tc main_v40) = val_main_v39 (F := Ideal) (m ((c : Thread nD τ).loc main_arg0)) (m ((c : Thread nD τ).loc main_arg2)) (m ((c : Thread nD τ).loc main_arg3)) := by
  show StableHlo.after hostOps1 (W2 m ρ c) (Proc.devRef .tc main_v40) = _
  after_results_simp
  simp only [at2_v27 m ρ c, at2_v1 m ρ c, at2_v3 m ρ c, at2_v26 m ρ c]
  rfl

/-- The first transformed features, untouched by this stretch. -/
theorem at3_v27 (c : Dev nD) : W3 m ρ c (Proc.devRef .tc main_v27) = val_main_v4 (F := Ideal) (m ((c : Thread nD τ).loc main_arg0)) (m ((c : Thread nD τ).loc main_arg3)) := by
  show StableHlo.after hostOps1 (W2 m ρ c) (Proc.devRef .tc main_v27) = _
  after_results_simp
  exact at2_v27 m ρ c

/-- The structural features, untouched by this stretch. -/
theorem at3_arg1 (c : Dev nD) : W3 m ρ c (Proc.devRef .tc main_arg1) = (m ((c : Thread nD τ).loc main_arg1)) := by
  show StableHlo.after hostOps1 (W2 m ρ c) (Proc.devRef .tc main_arg1) = _
  after_results_simp
  exact at2_arg1 m ρ c

/-- The structural weights, untouched by this stretch. -/
theorem at3_arg5 (c : Dev nD) : W3 m ρ c (Proc.devRef .tc main_arg5) = (m ((c : Thread nD τ).loc main_arg5)) := by
  show StableHlo.after hostOps1 (W2 m ρ c) (Proc.devRef .tc main_arg5) = _
  after_results_simp
  exact at2_arg5 m ρ c

/-- The first bias, untouched by this stretch. -/
theorem at3_arg4 (c : Dev nD) : W3 m ρ c (Proc.devRef .tc main_arg4) = (m ((c : Thread nD τ).loc main_arg4)) := by
  show StableHlo.after hostOps1 (W2 m ρ c) (Proc.devRef .tc main_arg4) = _
  after_results_simp
  exact at2_arg4 m ρ c

/-- The second bias, untouched by this stretch. -/
theorem at3_arg6 (c : Dev nD) : W3 m ρ c (Proc.devRef .tc main_arg6) = (m ((c : Thread nD τ).loc main_arg6)) := by
  show StableHlo.after hostOps1 (W2 m ρ c) (Proc.devRef .tc main_arg6) = _
  after_results_simp
  exact at2_arg6 m ρ c

/-- The hidden weights, untouched by this stretch. -/
theorem at3_arg7 (c : Dev nD) : W3 m ρ c (Proc.devRef .tc main_arg7) = (m ((c : Thread nD τ).loc main_arg7)) := by
  show StableHlo.after hostOps1 (W2 m ρ c) (Proc.devRef .tc main_arg7) = _
  after_results_simp
  exact at2_arg7 m ρ c

/-- The third bias, untouched by this stretch. -/
theorem at3_arg8 (c : Dev nD) : W3 m ρ c (Proc.devRef .tc main_arg8) = (m ((c : Thread nD τ).loc main_arg8)) := by
  show StableHlo.after hostOps1 (W2 m ρ c) (Proc.devRef .tc main_arg8) = _
  after_results_simp
  exact at2_arg8 m ρ c

/-- The edges' source nodes, untouched by this stretch. -/
theorem at3_v1 (c : Dev nD) : W3 m ρ c (Proc.devRef .tc main_v1) = val_main_v1 (F := Ideal) (m ((c : Thread nD τ).loc main_arg2)) := by
  show StableHlo.after hostOps1 (W2 m ρ c) (Proc.devRef .tc main_v1) = _
  after_results_simp
  exact at2_v1 m ρ c

/-- The edges' destination nodes, untouched by this stretch. -/
theorem at3_v3 (c : Dev nD) : W3 m ρ c (Proc.devRef .tc main_v3) = val_main_v3 (F := Ideal) (m ((c : Thread nD τ).loc main_arg2)) := by
  show StableHlo.after hostOps1 (W2 m ρ c) (Proc.devRef .tc main_v3) = _
  after_results_simp
  exact at2_v3 m ρ c

/-- The per-edge coefficients, untouched by this stretch. -/
theorem at3_v26 (c : Dev nD) : W3 m ρ c (Proc.devRef .tc main_v26) = val_main_v26 (F := Ideal) (m ((c : Thread nD τ).loc main_arg2)) := by
  show StableHlo.after hostOps1 (W2 m ρ c) (Proc.devRef .tc main_v26) = _
  after_results_simp
  exact at2_v26 m ρ c

/-- The squared inverse root degrees, untouched by this stretch. -/
theorem at3_v11 (c : Dev nD) : W3 m ρ c (Proc.devRef .tc main_v11) = val_main_v40 (F := Ideal) (m ((c : Thread nD τ).loc main_arg2)) := by
  show StableHlo.after hostOps1 (W2 m ρ c) (Proc.devRef .tc main_v11) = _
  after_results_simp
  exact at2_v11 m ρ c

/-! ## After the second pipelined call -/

/-- The second transformed features, what this call's write-backs leave. -/
theorem at4_v41 (c : Dev nD) : W4 m ρ c (Proc.devRef .tc main_v41) = val_main_v49 (F := Ideal) (m ((c : Thread nD τ).loc main_arg1)) (m ((c : Thread nD τ).loc main_arg5)) := by
  refine (W4_arr m ρ c 2).trans ((Dense1.final (V3 m ρ) c).trans ?_)
  dsimp only [V3]
  rw [at3_arg1 m ρ c, at3_arg5 m ρ c]

/-- The first aggregated messages, not an array of this call. -/
theorem at4_v40 (c : Dev nD) : W4 m ρ c (Proc.devRef .tc main_v40) = val_main_v39 (F := Ideal) (m ((c : Thread nD τ).loc main_arg0)) (m ((c : Thread nD τ).loc main_arg2)) (m ((c : Thread nD τ).loc main_arg3)) :=
  (W4_of_ne m ρ c main_v40 (by decide)).trans (at3_v40 m ρ c)

/-- The first transformed features, not an array of this call. -/
theorem at4_v27 (c : Dev nD) : W4 m ρ c (Proc.devRef .tc main_v27) = val_main_v4 (F := Ideal) (m ((c : Thread nD τ).loc main_arg0)) (m ((c : Thread nD τ).loc main_arg3)) :=
  (W4_of_ne m ρ c main_v27 (by decide)).trans (at3_v27 m ρ c)

/-- The first bias, not an array of this call. -/
theorem at4_arg4 (c : Dev nD) : W4 m ρ c (Proc.devRef .tc main_arg4) = (m ((c : Thread nD τ).loc main_arg4)) :=
  (W4_of_ne m ρ c main_arg4 (by decide)).trans (at3_arg4 m ρ c)

/-- The second bias, not an array of this call. -/
theorem at4_arg6 (c : Dev nD) : W4 m ρ c (Proc.devRef .tc main_arg6) = (m ((c : Thread nD τ).loc main_arg6)) :=
  (W4_of_ne m ρ c main_arg6 (by decide)).trans (at3_arg6 m ρ c)

/-- The hidden weights, not an array of this call. -/
theorem at4_arg7 (c : Dev nD) : W4 m ρ c (Proc.devRef .tc main_arg7) = (m ((c : Thread nD τ).loc main_arg7)) :=
  (W4_of_ne m ρ c main_arg7 (by decide)).trans (at3_arg7 m ρ c)

/-- The third bias, not an array of this call. -/
theorem at4_arg8 (c : Dev nD) : W4 m ρ c (Proc.devRef .tc main_arg8) = (m ((c : Thread nD τ).loc main_arg8)) :=
  (W4_of_ne m ρ c main_arg8 (by decide)).trans (at3_arg8 m ρ c)

/-- The edges' source nodes, not an array of this call. -/
theorem at4_v1 (c : Dev nD) : W4 m ρ c (Proc.devRef .tc main_v1) = val_main_v1 (F := Ideal) (m ((c : Thread nD τ).loc main_arg2)) :=
  (W4_of_ne m ρ c main_v1 (by decide)).trans (at3_v1 m ρ c)

/-- The edges' destination nodes, not an array of this call. -/
theorem at4_v3 (c : Dev nD) : W4 m ρ c (Proc.devRef .tc main_v3) = val_main_v3 (F := Ideal) (m ((c : Thread nD τ).loc main_arg2)) :=
  (W4_of_ne m ρ c main_v3 (by decide)).trans (at3_v3 m ρ c)

/-- The per-edge coefficients, not an array of this call. -/
theorem at4_v26 (c : Dev nD) : W4 m ρ c (Proc.devRef .tc main_v26) = val_main_v26 (F := Ideal) (m ((c : Thread nD τ).loc main_arg2)) :=
  (W4_of_ne m ρ c main_v26 (by decide)).trans (at3_v26 m ρ c)

/-- The squared inverse root degrees, not an array of this call. -/
theorem at4_v11 (c : Dev nD) : W4 m ρ c (Proc.devRef .tc main_v11) = val_main_v40 (F := Ideal) (m ((c : Thread nD τ).loc main_arg2)) :=
  (W4_of_ne m ρ c main_v11 (by decide)).trans (at3_v11 m ρ c)

end Cert.KernelIdeal.Stage

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.Fused.lean ====
/-
  The third pipelined call, which closes the first two graph convolutions, rectifies each and adds them: at every
  entry (row r, column c) of a 50000 × 128 array,
      max ((agg₁ (r,c) + h₁ (r,c) · d (r,0)) + b₁ (0,c)) 0  +  max ((agg₂ (r,c) + h₂ (r,c) · d (r,0)) + b₂ (0,c)) 0,
  with d the 50000 × 1 column of squared inverse root degrees and b₁, b₂ the 1 × 128 bias rows. One block of 2000
  rows per grid point; the identity shape casts drop out, the column is broadcast along each row and the bias rows
  along the rows, the zero is a broadcast scalar. The 25 blocks of rows tile the result, so after the call the result
  array is that function of the seven arrays the call finds.
-/
import proofs.«169853_j89249420411436_1_alg».proof.Proof.Gen.KernelIdeal.Frame
import proofs.«169853_j89249420411436_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row's entry of a 50000 × 1 column. -/
abbrev colOf (i : S50000x128.Idx) : S50000x1.Idx := fun a => match a with
  | ⟨0, _⟩ => ⟨(i 0).val, (i 0).isLt⟩
  | ⟨1, _⟩ => (0 : Fin 1)
/-- The column's entry of a 1 × 128 row. -/
abbrev rowOf (i : S50000x128.Idx) : S1x128.Idx := fun a => match a with
  | ⟨0, _⟩ => (0 : Fin 1)
  | ⟨1, _⟩ => ⟨(i 1).val, (i 1).isLt⟩

/-- The zero both branches are rectified against: the extended real the all-zero f32 word encodes. -/
abbrev zero : EReal := (FloatOps.ofBits (F := Ideal) .f32 0x00000000#32 : Ideal .f32)

/-- Two closed and rectified graph convolutions, added, entry by entry. -/
def fused (A1 H1 : S50000x128.Idx → EReal) (B1 : S1x128.Idx → EReal) (A2 H2 : S50000x128.Idx → EReal) (B2 : S1x128.Idx → EReal)
    (D : S50000x1.Idx → EReal) : S50000x128.Idx → EReal :=
  fun i => max ((A1 i + H1 i * D (colOf i)) + B1 (rowOf i)) zero + max ((A2 i + H2 i * D (colOf i)) + B2 (rowOf i)) zero

/-- The body's stored value at an entry of the block. -/
theorem pay_apply (x0 x1 : Vec Ideal S2000x128 .f32) (x6 : Vec Ideal S2000x1 .f32) (x2 : Vec Ideal S1x128 .f32)
    (x3 x4 : Vec Ideal S2000x128 .f32) (x6' : Vec Ideal S2000x1 .f32) (x5 : Vec Ideal S1x128 .f32) (p : Fin 2000) (q : Fin 128) :
    k2_pay1 (F := Ideal) x0 x1 x6 x2 x3 x4 x6' x5 (ix2 p q)
      = max ((x0 (ix2 p q) + x1 (ix2 p q) * x6 (ix2 p (0 : Fin 1))) + x2 (ix2 (0 : Fin 1) q)) zero
        + max ((x3 (ix2 p q) + x4 (ix2 p q) * x6' (ix2 p (0 : Fin 1))) + x5 (ix2 (0 : Fin 1) q)) zero := by
  unfold k2_pay1
  simp only [shapeCast_self]
  show max ((x0 (ix2 p q) + x1 (ix2 p q) * broadcastTo S2000x128 x6 broadcasts_S2000x1_S2000x128 (ix2 p q)) + broadcastTo S2000x128 x2 broadcasts_S1x128_S2000x128 (ix2 p q)) zero
      + max ((x3 (ix2 p q) + x4 (ix2 p q) * broadcastTo S2000x128 x6' broadcasts_S2000x1_S2000x128 (ix2 p q)) + broadcastTo S2000x128 x5 broadcasts_S1x128_S2000x128 (ix2 p q)) zero = _
  rw [broadcastTo_a1_ab_apply x6 broadcasts_S2000x1_S2000x128 p q, broadcastTo_1b_ab_apply x2 broadcasts_S1x128_S2000x128 p q,
    broadcastTo_a1_ab_apply x6' broadcasts_S2000x1_S2000x128 p q, broadcastTo_1b_ab_apply x5 broadcasts_S1x128_S2000x128 p q]

/-- The printed index maps over the grid: the output and the five row-blocked inputs move together, block `t` of the
    rows at point `t`; the two bias rows are read whole at every point. -/
theorem idx_facts : ∀ t : Fin cfg2.N, win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t`, read where the output block's entry `(p, q)` needs it, is the array `main_v40` there. -/
theorem read0 (c : Dev nD) (t : Fin cfg2.N) (p : Fin 2000) (q : Fin 128) :
    iblk2 V c 0 t (ix2 p q) = V c main_v40 (((cfg2.win 7).blk t).view.emb (ix2 p q)) := by
  obtain ⟨o0, o1, a0, a1, b0, b1, c0, c1, d0, d1, f0, f1, g0, g1, k0, k1⟩ := idx_facts t
  show V c main_v40 (((cfg2.win 0).blk t).view.emb (ix2 p q)) = _
  refine congrArg (V c main_v40) (funext fun a => Fin.ext ?_)
  match a with
  | ⟨0, _⟩ => show win2_0.index t (0 : Fin 2) * 2000 + 1 * p.val = win2_7.index t (0 : Fin 2) * 2000 + 1 * p.val; omega
  | ⟨1, _⟩ => show win2_0.index t (1 : Fin 2) * 128 + 1 * q.val = win2_7.index t (1 : Fin 2) * 128 + 1 * q.val; omega

/-- Window 1's block at point `t`, read where the output block's entry `(p, q)` needs it, is the array `main_v27` there. -/
theorem read1 (c : Dev nD) (t : Fin cfg2.N) (p : Fin 2000) (q : Fin 128) :
    iblk2 V c 1 t (ix2 p q) = V c main_v27 (((cfg2.win 7).blk t).view.emb (ix2 p q)) := by
  obtain ⟨o0, o1, a0, a1, b0, b1, c0, c1, d0, d1, f0, f1, g0, g1, k0, k1⟩ := idx_facts t
  show V c main_v27 (((cfg2.win 1).blk t).view.emb (ix2 p q)) = _
  refine congrArg (V c main_v27) (funext fun a => Fin.ext ?_)
  match a with
  | ⟨0, _⟩ => show win2_1.index t (0 : Fin 2) * 2000 + 1 * p.val = win2_7.index t (0 : Fin 2) * 2000 + 1 * p.val; omega
  | ⟨1, _⟩ => show win2_1.index t (1 : Fin 2) * 128 + 1 * q.val = win2_7.index t (1 : Fin 2) * 128 + 1 * q.val; omega

/-- Window 3's block at point `t`, read where the output block's entry `(p, q)` needs it, is the array `main_v54` there. -/
theorem read3 (c : Dev nD) (t : Fin cfg2.N) (p : Fin 2000) (q : Fin 128) :
    iblk2 V c 3 t (ix2 p q) = V c main_v54 (((cfg2.win 7).blk t).view.emb (ix2 p q)) := by
  obtain ⟨o0, o1, a0, a1, b0, b1, c0, c1, d0, d1, f0, f1, g0, g1, k0, k1⟩ := idx_facts t
  show V c main_v54 (((cfg2.win 3).blk t).view.emb (ix2 p q)) = _
  refine congrArg (V c main_v54) (funext fun a => Fin.ext ?_)
  match a with
  | ⟨0, _⟩ => show win2_3.index t (0 : Fin 2) * 2000 + 1 * p.val = win2_7.index t (0 : Fin 2) * 2000 + 1 * p.val; omega
  | ⟨1, _⟩ => show win2_3.index t (1 : Fin 2) * 128 + 1 * q.val = win2_7.index t (1 : Fin 2) * 128 + 1 * q.val; omega

/-- Window 4's block at point `t`, read where the output block's entry `(p, q)` needs it, is the array `main_v41` there. -/
theorem read4 (c : Dev nD) (t : Fin cfg2.N) (p : Fin 2000) (q : Fin 128) :
    iblk2 V c 4 t (ix2 p q) = V c main_v41 (((cfg2.win 7).blk t).view.emb (ix2 p q)) := by
  obtain ⟨o0, o1, a0, a1, b0, b1, c0, c1, d0, d1, f0, f1, g0, g1, k0, k1⟩ := idx_facts t
  show V c main_v41 (((cfg2.win 4).blk t).view.emb (ix2 p q)) = _
  refine congrArg (V c main_v41) (funext fun a => Fin.ext ?_)
  match a with
  | ⟨0, _⟩ => show win2_4.index t (0 : Fin 2) * 2000 + 1 * p.val = win2_7.index t (0 : Fin 2) * 2000 + 1 * p.val; omega
  | ⟨1, _⟩ => show win2_4.index t (1 : Fin 2) * 128 + 1 * q.val = win2_7.index t (1 : Fin 2) * 128 + 1 * q.val; omega

/-- Window 6's block at point `t`, read where the output block's entry `(p, q)` needs it, is the array `main_v57` there. -/
theorem read6 (c : Dev nD) (t : Fin cfg2.N) (p : Fin 2000) (q : Fin 128) :
    iblk2 V c 6 t (ix2 p (0 : Fin 1)) = V c main_v57 (colOf (((cfg2.win 7).blk t).view.emb (ix2 p q))) := by
  obtain ⟨o0, o1, a0, a1, b0, b1, c0, c1, d0, d1, f0, f1, g0, g1, k0, k1⟩ := idx_facts t
  show V c main_v57 (((cfg2.win 6).blk t).view.emb (ix2 p (0 : Fin 1))) = _
  refine congrArg (V c main_v57) (funext fun a => Fin.ext ?_)
  match a with
  | ⟨0, _⟩ => show win2_6.index t (0 : Fin 2) * 2000 + 1 * p.val = win2_7.index t (0 : Fin 2) * 2000 + 1 * p.val; omega
  | ⟨1, _⟩ => show win2_6.index t (1 : Fin 2) * 1 + 1 * ((0 : Fin 1) : ℕ) = 0; simp only [Fin.val_zero]; omega

/-- Window 2's block at point `t`, read where the output block's entry `(p, q)` needs it, is the array `main_v55` there. -/
theorem read2 (c : Dev nD) (t : Fin cfg2.N) (p : Fin 2000) (q : Fin 128) :
    iblk2 V c 2 t (ix2 (0 : Fin 1) q) = V c main_v55 (rowOf (((cfg2.win 7).blk t).view.emb (ix2 p q))) := by
  obtain ⟨o0, o1, a0, a1, b0, b1, c0, c1, d0, d1, f0, f1, g0, g1, k0, k1⟩ := idx_facts t
  show V c main_v55 (((cfg2.win 2).blk t).view.emb (ix2 (0 : Fin 1) q)) = _
  refine congrArg (V c main_v55) (funext fun a => Fin.ext ?_)
  match a with
  | ⟨0, _⟩ => show win2_2.index t (0 : Fin 2) * 1 + 1 * ((0 : Fin 1) : ℕ) = 0; simp only [Fin.val_zero]; omega
  | ⟨1, _⟩ => show win2_2.index t (1 : Fin 2) * 128 + 1 * q.val = win2_7.index t (1 : Fin 2) * 128 + 1 * q.val; omega

/-- Window 5's block at point `t`, read where the output block's entry `(p, q)` needs it, is the array `main_v56` there. -/
theorem read5 (c : Dev nD) (t : Fin cfg2.N) (p : Fin 2000) (q : Fin 128) :
    iblk2 V c 5 t (ix2 (0 : Fin 1) q) = V c main_v56 (rowOf (((cfg2.win 7).blk t).view.emb (ix2 p q))) := by
  obtain ⟨o0, o1, a0, a1, b0, b1, c0, c1, d0, d1, f0, f1, g0, g1, k0, k1⟩ := idx_facts t
  show V c main_v56 (((cfg2.win 5).blk t).view.emb (ix2 (0 : Fin 1) q)) = _
  refine congrArg (V c main_v56) (funext fun a => Fin.ext ?_)
  match a with
  | ⟨0, _⟩ => show win2_5.index t (0 : Fin 2) * 1 + 1 * ((0 : Fin 1) : ℕ) = 0; simp only [Fin.val_zero]; omega
  | ⟨1, _⟩ => show win2_5.index t (1 : Fin 2) * 128 + 1 * q.val = win2_7.index t (1 : Fin 2) * 128 + 1 * q.val; omega

/-- What point `t` writes back is block `t` of the fused function of the seven arrays as the call finds them. -/
theorem flushed_eq (c : Dev nD) (t : Fin cfg2.N) :
    (dat2 V c).flushed 7 t = ((cfg2.win 7).blk t).view.read (Elt Ideal)
      (fused (V c main_v40) (V c main_v27) (V c main_v55) (V c main_v54) (V c main_v41) (V c main_v56) (V c main_v57)) := by
  show (cfg2.win 7).cut (grid2.coords t) ((dat2 V c).after 7 t) = _
  rw [after2_7]
  unfold out2_7
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 6 t) (iblk2 V c 2 t) (iblk2 V c 3 t) (iblk2 V c 4 t) (iblk2 V c 6 t) (iblk2 V c 5 t) (ix2 p q)
    = fused (V c main_v40) (V c main_v27) (V c main_v55) (V c main_v54) (V c main_v41) (V c main_v56) (V c main_v57) (((cfg2.win 7).blk t).view.emb (ix2 p q))
  refine (pay_apply _ _ _ _ _ _ _ _ p q).trans ?_
  unfold fused
  rw [read0 V c t p q, read1 V c t p q, read3 V c t p q, read4 V c t p q, read6 V c t p q, read2 V c t p q, read5 V c t p q]

/-- An entry of the result is in point `t`'s block iff each coordinate is in the block's range on its axis. -/
theorem mem_blk (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v58).slice (win2_7.rect t)).set ↔ _
  rw [View.set_slice_whole, Rect.mem_set_unit]
  exact Iff.rfl

/-- Every entry of the result lies in the block of the point that owns its row: row `r` belongs to point `r / 2000`. -/
theorem cover (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; omega⟩
  have e := idx_facts t
  have eo0 : win2_7.index t (0 : Fin 2) = (i 0).val / 2000 := e.1
  have eo1 : win2_7.index t (1 : Fin 2) = 0 := e.2.1
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- After the call the result array holds the fused function of the seven arrays as the call found them. -/
theorem final (c : Dev nD) : (dat2 V c).arrAt 7 cfg2.N
    = fused (V c main_v40) (V c main_v27) (V c main_v55) (V c main_v54) (V c main_v41) (V c main_v56) (V c main_v57) :=
  (dat2 V c).arrAt_eq_of_cover 7 _ (fun t _ => flushed_eq V c t) cover

end Cert.KernelIdeal.Fused

end
-- ==== Proof.Dense3.lean ====
/-
  The fourth pipelined call: the sum of the two rectified branches (50000 × 128, whatever array the call finds
  there) times the hidden weights (128 × 64), one block of 2000 rows per grid point. The left block passes through
  an identity shape cast and both operands through the rounding to bf16, the identity on extended reals; the
  accumulator starts at zero, so each stored entry is the sum over the 128 contracted positions of row entry times
  column entry, and the 25 blocks of rows tile the result: the whole matrix product, the reference's general dot
  product of the same two arrays (read at an entry for any left operand, below).
-/
import proofs.«169853_j89249420411436_1_alg».proof.Proof.Gen.KernelIdeal.Frame
import proofs.«169853_j89249420411436_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block of rows times the weight matrix, entry by entry -/

/-- Row `j 0` of the block of rows, at column `k` of the contracted axis. -/
abbrev lrow (j : S2000x64.Idx) (k : Fin 128) : S2000x128.Idx := fun a => match a with
  | ⟨0, _⟩ => ⟨(j 0).val, (j 0).isLt⟩
  | ⟨1, _⟩ => ⟨k.val, k.isLt⟩
/-- Column `j 1` of the weight matrix, at row `k` of the contracted axis. -/
abbrev rcol (j : S2000x64.Idx) (k : Fin 128) : S128x64.Idx := fun a => match a with
  | ⟨0, _⟩ => ⟨k.val, k.isLt⟩
  | ⟨1, _⟩ => ⟨(j 1).val, (j 1).isLt⟩

theorem lhs_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's stored value at an entry: the two operands are rounded to bf16 (the identity on extended reals) and
    multiplied into a zero accumulator, so the entry is the plain sum over the contracted axis of row times column. -/
theorem pay_apply (x0 : Vec Ideal S2000x128 .f32) (x1 : Vec Ideal S128x64 .f32) (j : S2000x64.Idx) :
    k3_pay1 (F := Ideal) x0 x1 j = ∑ k : Fin 128, x0 (lrow j k) * x1 (rcol j k) := by
  unfold k3_pay1
  simp only [matmul, shapeCast_self]
  refine (Ideal.matmul_constant_zero_apply dot_S2000x128_S128x64_S2000x64_1_0_0_1_n_n none _ _ j).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = lrow j k := funext fun a => Fin.ext (by
    match a with
    | ⟨0, _⟩ => exact lhs_0 _ _
    | ⟨1, _⟩ => exact (lhs_1 _ _).trans hk)
  have er : dot_S2000x128_S128x64_S2000x64_1_0_0_1_n_n.rhsIdx j ((ValueIdx.contrEquiv1 dot_S2000x128_S128x64_S2000x64_1_0_0_1_n_n 128 rfl rfl).symm k) = rcol j k := funext fun a => Fin.ext (by
    match a with
    | ⟨0, _⟩ => exact (rhs_0 _ _).trans hk
    | ⟨1, _⟩ => exact rhs_1 _ _)
  rw [el, er]
  rfl

/-! ## The reference's product of a 50000 × 128 array and a 128 × 64 array, at an entry -/

/-- The host's general dot product contracting the second axis of the left operand with the first of the right is,
    at entry `(r, c)`, the sum over the 128 contracted positions of `l (r, k) · w (k, c)` — for ANY left operand. -/
theorem refdot_apply (l : (⟨Cert.ReferenceIdeal.S50000x128, .f32⟩ : BufTy).Contents (Elt Ideal)) (w : (⟨Cert.ReferenceIdeal.S128x64, .f32⟩ : BufTy).Contents (Elt Ideal)) (i : Cert.ReferenceIdeal.S50000x64.Idx) :
    Host.dotGeneral (F := Ideal) (φ₁ := .f32) (φ₂ := .f32) Cert.ReferenceIdeal.dot_S50000x128_S128x64_S50000x64_1_0_0_1_n_n none l w i = ∑ k : Fin 128, l (Cert.ReferenceIdeal.Read.lidx_main_v95 i k) * w (Cert.ReferenceIdeal.Read.ridx_main_v95 i k) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.Read.lidx_main_v95 i k := funext fun a => Fin.ext (by
    match a with
    | ⟨0, _⟩ => exact Cert.ReferenceIdeal.Read.lhs_main_v95_0 _ _
    | ⟨1, _⟩ => exact (Cert.ReferenceIdeal.Read.lhs_main_v95_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.Read.ridx_main_v95 i k := funext fun a => Fin.ext (by
    match a with
    | ⟨0, _⟩ => exact (Cert.ReferenceIdeal.Read.rhs_main_v95_0 _ _).trans hk
    | ⟨1, _⟩ => exact Cert.ReferenceIdeal.Read.rhs_main_v95_1 _ _)
  rw [el, er]

/-! ## From the blocks of rows to the whole product -/

/-- The printed index maps over the grid: point `t` reads block `t` of the rows and the whole weight matrix, and
    writes block `t` of the result's rows. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the whole product of the two arrays as the call finds them. -/
theorem flushed_eq (c : Dev nD) (t : Fin cfg3.N) :
    (dat3 V c).flushed 2 t = ((cfg3.win 2).blk t).view.read (Elt Ideal)
      (Host.dotGeneral (F := Ideal) (φ₁ := .f32) (φ₂ := .f32) Cert.ReferenceIdeal.dot_S50000x128_S128x64_S50000x64_1_0_0_1_n_n none (V c main_v58) (V c main_arg7)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x64) hz]
  obtain ⟨e0, e1, e2, e3, e4, e5⟩ := idx_facts t
  funext j
  show k3_pay1 (F := Ideal) (iblk3 V c 0 t) (iblk3 V c 1 t) j = (Host.dotGeneral (F := Ideal) (φ₁ := .f32) (φ₂ := .f32) Cert.ReferenceIdeal.dot_S50000x128_S128x64_S50000x64_1_0_0_1_n_n none (V c main_v58) (V c main_arg7)) (((cfg3.win 2).blk t).view.emb j)
  refine (pay_apply _ _ j).trans ?_
  refine Eq.trans ?_ (refdot_apply _ _ _).symm
  refine Finset.sum_congr rfl fun k _ => ?_
  have h0 : iblk3 V c 0 t (lrow j k) = V c main_v58 (Cert.ReferenceIdeal.Read.lidx_main_v95 (((cfg3.win 2).blk t).view.emb j) k) := by
    show V c main_v58 (((cfg3.win 0).blk t).view.emb (lrow j k)) = _
    refine congrArg (V c main_v58) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * k.val = k.val; omega
  have h1 : iblk3 V c 1 t (rcol j k) = V c main_arg7 (Cert.ReferenceIdeal.Read.ridx_main_v95 (((cfg3.win 2).blk t).view.emb j) k) := by
    show V c main_arg7 (((cfg3.win 1).blk t).view.emb (rcol j k)) = _
    refine congrArg (V c main_arg7) (funext fun a => Fin.ext ?_)
    match a with
    | ⟨0, _⟩ => show win3_1.index t (0 : Fin 2) * 128 + 1 * k.val = k.val; omega
    | ⟨1, _⟩ => show win3_1.index t (1 : Fin 2) * 64 + 1 * (j 1).val = win3_2.index t (1 : Fin 2) * 64 + 1 * (j 1).val; omega
  rw [h0, h1]

/-- An entry of the result is in point `t`'s block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v59).slice (win3_2.rect t)).set ↔ _
  rw [View.set_slice_whole, Rect.mem_set_unit]
  exact Iff.rfl

/-- Every entry of the result lies in the block of the point that owns its row: row `r` belongs to point `r / 2000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 25 := N_3
  let t : Fin cfg3.N := ⟨(i 0).val / 2000, by show (i 0).val / 2000 < grid3.N; omega⟩
  obtain ⟨e0, e1, e2, e3, e4, e5⟩ := idx_facts t
  have e4' : win3_2.index t (0 : Fin 2) = (i 0).val / 2000 := e4
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the call the result array holds the whole product of the two arrays as the call found them. -/
theorem final (c : Dev nD) : (dat3 V c).arrAt 2 cfg3.N = Host.dotGeneral (F := Ideal) (φ₁ := .f32) (φ₂ := .f32) Cert.ReferenceIdeal.dot_S50000x128_S128x64_S50000x64_1_0_0_1_n_n none (V c main_v58) (V c main_arg7) :=
  (dat3 V c).arrAt_eq_of_cover 2 _ (fun t _ => flushed_eq V c t) cover

end Cert.KernelIdeal.Dense3

end
-- ==== Proof.Closing.lean ====
/-
  The last pipelined call, the closing sum of the third graph convolution: at every entry (row r, column c) of a
  50000 × 64 array, the aggregated messages plus the transformed features times the row's squared inverse root
  degree, plus the column's bias:  (agg (r,c) + h (r,c) · d (r,0)) + b (0,c),  with d a 50000 × 1 column and b a
  1 × 64 row. One block of 2000 rows per grid point; the identity shape casts drop out, the column is broadcast along
  the rows' entries and the row along the rows. The 25 blocks of rows tile the result, so after the call the result
  array is that function of the four arrays the call finds.
-/
import proofs.«169853_j89249420411436_1_alg».proof.Proof.Gen.KernelIdeal.Frame
import proofs.«169853_j89249420411436_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Closing

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row's entry of a 50000 × 1 column. -/
abbrev colOf (i : S50000x64.Idx) : S50000x1.Idx := fun a => match a with
  | ⟨0, _⟩ => ⟨(i 0).val, (i 0).isLt⟩
  | ⟨1, _⟩ => (0 : Fin 1)
/-- The column's entry of a 1 × 64 row. -/
abbrev rowOf (i : S50000x64.Idx) : S1x64.Idx := fun a => match a with
  | ⟨0, _⟩ => (0 : Fin 1)
  | ⟨1, _⟩ => ⟨(i 1).val, (i 1).isLt⟩

/-- The closing sum of a graph convolution, entry by entry. -/
def closing (A H : S50000x64.Idx → EReal) (B : S1x64.Idx → EReal) (D : S50000x1.Idx → EReal) : S50000x64.Idx → EReal :=
  fun i => (A i + H i * D (colOf i)) + B (rowOf i)

/-- The body's stored value at an entry of the block. -/
theorem pay_apply (x0 x1 : Vec Ideal S2000x64 .f32) (x3 : Vec Ideal S2000x1 .f32) (x2 : Vec Ideal S1x64 .f32) (p : Fin 2000) (q : Fin 64) :
    k4_pay1 (F := Ideal) x0 x1 x3 x2 (ix2 p q) = (x0 (ix2 p q) + x1 (ix2 p q) * x3 (ix2 p (0 : Fin 1))) + x2 (ix2 (0 : Fin 1) q) := by
  unfold k4_pay1
  simp only [shapeCast_self]
  show (x0 (ix2 p q) + x1 (ix2 p q) * broadcastTo S2000x64 x3 broadcasts_S2000x1_S2000x64 (ix2 p q)) + broadcastTo S2000x64 x2 broadcasts_S1x64_S2000x64 (ix2 p q) = _
  rw [broadcastTo_a1_ab_apply x3 broadcasts_S2000x1_S2000x64 p q, broadcastTo_1b_ab_apply x2 broadcasts_S1x64_S2000x64 p q]

/-- The printed index maps over the grid: the output and the three row-blocked inputs move together, block `t` of the
    rows at point `t`; the bias row is read whole at every point. -/
theorem idx_facts : ∀ t : Fin cfg4.N, win4_4.index t (0 : Fin 2) = t.val ∧ win4_4.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the closing sum of the four arrays as the call finds them. -/
theorem flushed_eq (c : Dev nD) (t : Fin cfg4.N) :
    (dat4 V c).flushed 4 t = ((cfg4.win 4).blk t).view.read (Elt Ideal)
      (closing (V c main_v72) (V c main_v59) (V c main_v73) (V c main_v74)) := by
  show (cfg4.win 4).cut (grid4.coords t) ((dat4 V c).after 4 t) = _
  rw [after4_4]
  unfold out4_4
  rw [View.canon_unit_zero hz]
  simp only [View.ld_unit_zero (S := S2000x64) hz, View.ld_unit_zero (S := S2000x1) hz, View.ld_unit_zero (S := S1x64) hz]
  obtain ⟨o0, o1, a0, a1, b0, b1, c0, c1, d0, d1⟩ := idx_facts t
  funext j
  obtain ⟨p, q, rfl⟩ : ∃ (p : Fin 2000) (q : Fin 64), j = ix2 p q := ⟨j 0, j 1, eq_ix2 j⟩
  show k4_pay1 (F := Ideal) (iblk4 V c 0 t) (iblk4 V c 1 t) (iblk4 V c 3 t) (iblk4 V c 2 t) (ix2 p q)
    = closing (V c main_v72) (V c main_v59) (V c main_v73) (V c main_v74) (((cfg4.win 4).blk t).view.emb (ix2 p q))
  refine (pay_apply _ _ _ _ p q).trans ?_
  unfold closing
  have h0 : iblk4 V c 0 t (ix2 p q) = V c main_v72 (((cfg4.win 4).blk t).view.emb (ix2 p q)) := by
    show V c main_v72 (((cfg4.win 0).blk t).view.emb (ix2 p q)) = _
    refine congrArg (V c main_v72) (funext fun a => Fin.ext ?_)
    match a with
    | ⟨0, _⟩ => show win4_0.index t (0 : Fin 2) * 2000 + 1 * p.val = win4_4.index t (0 : Fin 2) * 2000 + 1 * p.val; omega
    | ⟨1, _⟩ => show win4_0.index t (1 : Fin 2) * 64 + 1 * q.val = win4_4.index t (1 : Fin 2) * 64 + 1 * q.val; omega
  have h1 : iblk4 V c 1 t (ix2 p q) = V c main_v59 (((cfg4.win 4).blk t).view.emb (ix2 p q)) := by
    show V c main_v59 (((cfg4.win 1).blk t).view.emb (ix2 p q)) = _
    refine congrArg (V c main_v59) (funext fun a => Fin.ext ?_)
    match a with
    | ⟨0, _⟩ => show win4_1.index t (0 : Fin 2) * 2000 + 1 * p.val = win4_4.index t (0 : Fin 2) * 2000 + 1 * p.val; omega
    | ⟨1, _⟩ => show win4_1.index t (1 : Fin 2) * 64 + 1 * q.val = win4_4.index t (1 : Fin 2) * 64 + 1 * q.val; omega
  have h3 : iblk4 V c 3 t (ix2 p (0 : Fin 1)) = V c main_v74 (colOf (((cfg4.win 4).blk t).view.emb (ix2 p q))) := by
    show V c main_v74 (((cfg4.win 3).blk t).view.emb (ix2 p (0 : Fin 1))) = _
    refine congrArg (V c main_v74) (funext fun a => Fin.ext ?_)
    match a with
    | ⟨0, _⟩ => show win4_3.index t (0 : Fin 2) * 2000 + 1 * p.val = win4_4.index t (0 : Fin 2) * 2000 + 1 * p.val; omega
    | ⟨1, _⟩ => show win4_3.index t (1 : Fin 2) * 1 + 1 * ((0 : Fin 1) : ℕ) = 0; simp only [Fin.val_zero]; omega
  have h2 : iblk4 V c 2 t (ix2 (0 : Fin 1) q) = V c main_v73 (rowOf (((cfg4.win 4).blk t).view.emb (ix2 p q))) := by
    show V c main_v73 (((cfg4.win 2).blk t).view.emb (ix2 (0 : Fin 1) q)) = _
    refine congrArg (V c main_v73) (funext fun a => Fin.ext ?_)
    match a with
    | ⟨0, _⟩ => show win4_2.index t (0 : Fin 2) * 1 + 1 * ((0 : Fin 1) : ℕ) = 0; simp only [Fin.val_zero]; omega
    | ⟨1, _⟩ => show win4_2.index t (1 : Fin 2) * 64 + 1 * q.val = win4_4.index t (1 : Fin 2) * 64 + 1 * q.val; omega
  rw [h0, h1, h3, h2]

/-- An entry of the result is in point `t`'s block iff each coordinate is in the block's range on its axis. -/
theorem mem_blk (t : Fin cfg4.N) (i : S50000x64.Idx) :
    i ∈ ((cfg4.win 4).blk t).view.set ↔ ∀ a : Fin 2, win4_4.index t a * S2000x64.size a ≤ (i a).val ∧ (i a).val < win4_4.index t a * S2000x64.size a + S2000x64.size a := by
  show i ∈ ((View.whole main_v75).slice (win4_4.rect t)).set ↔ _
  rw [View.set_slice_whole, Rect.mem_set_unit]
  exact Iff.rfl

/-- Every entry of the result lies in the block of the point that owns its row: row `r` belongs to point `r / 2000`. -/
theorem cover (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 25 := N_4
  let t : Fin cfg4.N := ⟨(i 0).val / 2000, by show (i 0).val / 2000 < grid4.N; omega⟩
  have e := idx_facts t
  have eo0 : win4_4.index t (0 : Fin 2) = (i 0).val / 2000 := e.1
  have eo1 : win4_4.index t (1 : Fin 2) = 0 := e.2.1
  refine ⟨t, flush4_4 t, ?_⟩
  rw [mem_blk]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 64 ≤ (i 1).val ∧ (i 1).val < win4_4.index t (1 : Fin 2) * 64 + 64; omega

/-- After the call the result array holds the closing sum of the four arrays as the call found them. -/
theorem final (c : Dev nD) : (dat4 V c).arrAt 4 cfg4.N = closing (V c main_v72) (V c main_v59) (V c main_v73) (V c main_v74) :=
  (dat4 V c).arrAt_eq_of_cover 4 _ (fun t _ => flushed_eq V c t) cover

end Cert.KernelIdeal.Closing

end
-- ==== Proof.RefEntry.lean ====
/-
  The reference's elementwise stages read at an entry. After its opaque stages — the general dot products, the
  gathers along the edges and the scatter-additions into the destination nodes — each of the reference's three
  graph convolutions closes the same way: entry (r, c) is the aggregated messages plus the transformed features times
  the squared inverse root degree of node r, plus the bias of column c; the first two are then rectified against zero
  and added. Read at (r, c) through the reference's own per-operation lemmas (its broadcasts of the degree vector to
  a column and along the rows, of a bias vector to a row and along the columns), that is the kernel bodies' function
  of the same opaque stages, with the vectors reshaped to a column [n, 1] and a row [1, n] (a reshape of a vector
  keeps its entries in order). The reference recomputes the degrees, their inverse roots and the per-edge
  coefficients once per convolution, from the same edge list by the same operations: the recomputed arrays are the
  first ones, by unfolding.
-/
import proofs.«169853_j89249420411436_1_alg».proof.Proof.Fused
import proofs.«169853_j89249420411436_1_alg».proof.Proof.Closing
import proofs.«169853_j89249420411436_1_alg».proof.Proof.Gen.ReferenceIdeal.Read
import proofs.«169853_j89249420411436_1_alg».proof.Proof.LibLayout
import Idealize.ShloMosaic.Lib.ValueLayout

set_option maxRecDepth 16384

noncomputable section

namespace Cert.KernelIdeal.RefEntry

open Cert.KernelIdeal Cert.KernelIdeal.Gen Idealize.ShloMosaic Idealize.ShloMosaic.TcCoe Idealize.SL.Sem
open Idealize.ShloMosaic.ValueIdx
open Cert.ReferenceIdeal.Read

/-! ## The recomputed degree chain is the first one -/

/-- The squared inverse root degrees the second convolution recomputes are the first convolution's. -/
theorem dinv2_second (x2 : (⟨S2x1600000, .i32⟩ : BufTy).Contents (Elt Ideal)) : val_main_v85 (F := Ideal) x2 = val_main_v40 (F := Ideal) x2 := rfl
/-- The squared inverse root degrees the third convolution recomputes are the first convolution's. -/
theorem dinv2_third (x2 : (⟨S2x1600000, .i32⟩ : BufTy).Contents (Elt Ideal)) : val_main_v131 (F := Ideal) x2 = val_main_v40 (F := Ideal) x2 := rfl

/-! ## Index bookkeeping: the reference's composed broadcast indices and the bodies' column and row reads, by coordinates -/

theorem colOf128 (r : Fin 50000) (q : Fin 128) : Fused.colOf (ix2 r q) = ix2 r (0 : Fin 1) :=
  funext fun a => match a with | ⟨0, _⟩ => rfl | ⟨1, _⟩ => rfl
theorem rowOf128 (r : Fin 50000) (q : Fin 128) : Fused.rowOf (ix2 r q) = ix2 (0 : Fin 1) q :=
  funext fun a => match a with | ⟨0, _⟩ => rfl | ⟨1, _⟩ => rfl
theorem colOf64 (r : Fin 50000) (q : Fin 64) : Closing.colOf (ix2 r q) = ix2 r (0 : Fin 1) :=
  funext fun a => match a with | ⟨0, _⟩ => rfl | ⟨1, _⟩ => rfl
theorem rowOf64 (r : Fin 50000) (q : Fin 64) : Closing.rowOf (ix2 r q) = ix2 (0 : Fin 1) q :=
  funext fun a => match a with | ⟨0, _⟩ => rfl | ⟨1, _⟩ => rfl
theorem deg1 (r : Fin 50000) (q : Fin 128) : idx_main_v41 (idx_main_v42 (ix2 r q)) = ix1 r :=
  funext fun a => match a with | ⟨0, _⟩ => rfl
theorem deg2 (r : Fin 50000) (q : Fin 128) : idx_main_v86 (idx_main_v87 (ix2 r q)) = ix1 r :=
  funext fun a => match a with | ⟨0, _⟩ => rfl
theorem deg3 (r : Fin 50000) (q : Fin 64) : idx_main_v132 (idx_main_v133 (ix2 r q)) = ix1 r :=
  funext fun a => match a with | ⟨0, _⟩ => rfl
theorem bias1 (r : Fin 50000) (q : Fin 128) : idx_main_v45 (idx_main_v46 (ix2 r q)) = ix1 q :=
  funext fun a => match a with | ⟨0, _⟩ => rfl
theorem bias2 (r : Fin 50000) (q : Fin 128) : idx_main_v90 (idx_main_v91 (ix2 r q)) = ix1 q :=
  funext fun a => match a with | ⟨0, _⟩ => rfl
theorem bias3 (r : Fin 50000) (q : Fin 64) : idx_main_v136 (idx_main_v137 (ix2 r q)) = ix1 q :=
  funext fun a => match a with | ⟨0, _⟩ => rfl

/-! ## The two rectified convolutions, added -/

/-- The reference's sum of its first two rectified convolutions is the fused body's function of the reference's
    opaque stages and of the reshaped bias and degree vectors. -/
theorem fused_ref (x0 : (⟨S50000x512, .f32⟩ : BufTy).Contents (Elt Ideal)) (x1 : (⟨S50000x128, .f32⟩ : BufTy).Contents (Elt Ideal)) (x2 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    Fused.fused (val_main_v39 (F := Ideal) x0 x2 x3) (val_main_v4 (F := Ideal) x0 x3) (shapeCast S1x128 x4 shapeCasts_S128_S1x128)
      (val_main_v84 (F := Ideal) x1 x2 x5) (val_main_v49 (F := Ideal) x1 x5) (shapeCast S1x128 x6 shapeCasts_S128_S1x128)
      (shapeCast S50000x1 (val_main_v40 (F := Ideal) x2) shapeCasts_S50000_S50000x1)
    = val_main_v94 (F := Ideal) x0 x1 x2 x3 x4 x5 x6 := by
  funext i
  obtain ⟨r, q, rfl⟩ : ∃ (r : Fin 50000) (q : Fin 128), i = ix2 r q := ⟨i 0, i 1, eq_ix2 i⟩
  unfold Fused.fused
  rw [colOf128, rowOf128, shapeCast_a_a1_apply (val_main_v40 (F := Ideal) x2) shapeCasts_S50000_S50000x1 r (0 : Fin 1),
    shapeCast_a_1a_apply x4 shapeCasts_S128_S1x128 (0 : Fin 1) q, shapeCast_a_1a_apply x6 shapeCasts_S128_S1x128 (0 : Fin 1) q]
  rw [val_main_v94_apply, val_main_v48_apply, val_main_v47_apply, val_main_v44_apply, val_main_v43_apply, val_main_v42_apply,
    val_main_v41_apply, val_main_v46_apply, val_main_v45_apply, val_main_call0_v0_apply, val_main_call0_cst_apply,
    val_main_v93_apply, val_main_v92_apply, val_main_v89_apply, val_main_v88_apply, val_main_v87_apply, val_main_v86_apply,
    val_main_v91_apply, val_main_v90_apply, val_main_call1_v0_apply, val_main_call1_cst_apply,
    deg1, deg2, bias1, bias2, dinv2_second]
  rfl

/-! ## The third convolution's closing sum -/

/-- The reference's result is the closing body's function of the reference's opaque stages of the third convolution
    and of the reshaped bias and degree vectors. -/
theorem closing_ref (x0 : (⟨S50000x512, .f32⟩ : BufTy).Contents (Elt Ideal)) (x1 : (⟨S50000x128, .f32⟩ : BufTy).Contents (Elt Ideal)) (x2 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) :
    Closing.closing (val_main_v130 (F := Ideal) x0 x1 x2 x3 x4 x5 x6 x7) (val_main_v95 (F := Ideal) x0 x1 x2 x3 x4 x5 x6 x7)
      (shapeCast S1x64 x8 shapeCasts_S64_S1x64) (shapeCast S50000x1 (val_main_v40 (F := Ideal) x2) shapeCasts_S50000_S50000x1)
    = val_main_v138 (F := Ideal) x0 x1 x2 x3 x4 x5 x6 x7 x8 := by
  funext i
  obtain ⟨r, q, rfl⟩ : ∃ (r : Fin 50000) (q : Fin 64), i = ix2 r q := ⟨i 0, i 1, eq_ix2 i⟩
  unfold Closing.closing
  rw [colOf64, rowOf64, shapeCast_a_a1_apply (val_main_v40 (F := Ideal) x2) shapeCasts_S50000_S50000x1 r (0 : Fin 1),
    shapeCast_a_1a_apply x8 shapeCasts_S64_S1x64 (0 : Fin 1) q]
  rw [val_main_v138_apply, val_main_v135_apply, val_main_v134_apply, val_main_v133_apply, val_main_v132_apply,
    val_main_v137_apply, val_main_v136_apply, deg3, bias3, dinv2_third]
  rfl

end Cert.KernelIdeal.RefEntry

end
-- ==== Proof.StageC.lean ====
/-
  The kernel program's buffers at the fifth, sixth and seventh boundaries. The third stretch of host operations
  aggregates the second transformed features along the edges exactly as the second stretch did the first (the
  reference recomputes the per-edge coefficients for this convolution: the same array, by unfolding), and reshapes the
  two bias vectors to rows and the squared inverse root degrees to a column. The fused call then leaves the sum of the
  two rectified convolutions — the reference's stage, entry by entry —, and the next call, with no host operation
  in between, its product with the hidden weights: the reference's general dot product of the same two arrays.
-/
import proofs.«169853_j89249420411436_1_alg».proof.Proof.StageB
import proofs.«169853_j89249420411436_1_alg».proof.Proof.Fused
import proofs.«169853_j89249420411436_1_alg».proof.Proof.Dense3
import proofs.«169853_j89249420411436_1_alg».proof.Proof.RefEntry
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the third stretch of host operations -/

set_option maxHeartbeats 1000000 in
/-- The second aggregated messages, computed by this stretch from buffers already read. -/
theorem at5_v54 (c : Dev nD) : W5 m ρ c (Proc.devRef .tc main_v54) = val_main_v84 (F := Ideal) (m ((c : Thread nD τ).loc main_arg1)) (m ((c : Thread nD τ).loc main_arg2)) (m ((c : Thread nD τ).loc main_arg5)) := by
  show StableHlo.after hostOps2 (W4 m ρ c) (Proc.devRef .tc main_v54) = _
  after_results_simp
  simp only [at4_v41 m ρ c, at4_v1 m ρ c, at4_v3 m ρ c, at4_v26 m ρ c]
  rfl

/-- The first bias as a row, computed by this stretch from buffers already read. -/
theorem at5_v55 (c : Dev nD) : W5 m ρ c (Proc.devRef .tc main_v55) = shapeCast S1x128 (m ((c : Thread nD τ).loc main_arg4)) shapeCasts_S128_S1x128 := by
  show StableHlo.after hostOps2 (W4 m ρ c) (Proc.devRef .tc main_v55) = _
  after_results_simp
  simp only [at4_arg4 m ρ c]
  rfl

/-- The second bias as a row, computed by this stretch from buffers already read. -/
theorem at5_v56 (c : Dev nD) : W5 m ρ c (Proc.devRef .tc main_v56) = shapeCast S1x128 (m ((c : Thread nD τ).loc main_arg6)) shapeCasts_S128_S1x128 := by
  show StableHlo.after hostOps2 (W4 m ρ c) (Proc.devRef .tc main_v56) = _
  after_results_simp
  simp only [at4_arg6 m ρ c]
  rfl

/-- The squared inverse root degrees as a column, computed by this stretch from buffers already read. -/
theorem at5_v57 (c : Dev nD) : W5 m ρ c (Proc.devRef .tc main_v57) = shapeCast S50000x1 (val_main_v40 (F := Ideal) (m ((c : Thread nD τ).loc main_arg2))) shapeCasts_S50000_S50000x1 := by
  show StableHlo.after hostOps2 (W4 m ρ c) (Proc.devRef .tc main_v57) = _
  after_results_simp
  simp only [at4_v11 m ρ c]
  rfl

/-- The first aggregated messages, untouched by this stretch. -/
theorem at5_v40 (c : Dev nD) : W5 m ρ c (Proc.devRef .tc main_v40) = val_main_v39 (F := Ideal) (m ((c : Thread nD τ).loc main_arg0)) (m ((c : Thread nD τ).loc main_arg2)) (m ((c : Thread nD τ).loc main_arg3)) := by
  show StableHlo.after hostOps2 (W4 m ρ c) (Proc.devRef .tc main_v40) = _
  after_results_simp
  exact at4_v40 m ρ c

/-- The first transformed features, untouched by this stretch. -/
theorem at5_v27 (c : Dev nD) : W5 m ρ c (Proc.devRef .tc main_v27) = val_main_v4 (F := Ideal) (m ((c : Thread nD τ).loc main_arg0)) (m ((c : Thread nD τ).loc main_arg3)) := by
  show StableHlo.after hostOps2 (W4 m ρ c) (Proc.devRef .tc main_v27) = _
  after_results_simp
  exact at4_v27 m ρ c

/-- The second transformed features, untouched by this stretch. -/
theorem at5_v41 (c : Dev nD) : W5 m ρ c (Proc.devRef .tc main_v41) = val_main_v49 (F := Ideal) (m ((c : Thread nD τ).loc main_arg1)) (m ((c : Thread nD τ).loc main_arg5)) := by
  show StableHlo.after hostOps2 (W4 m ρ c) (Proc.devRef .tc main_v41) = _
  after_results_simp
  exact at4_v41 m ρ c

/-- The hidden weights, untouched by this stretch. -/
theorem at5_arg7 (c : Dev nD) : W5 m ρ c (Proc.devRef .tc main_arg7) = (m ((c : Thread nD τ).loc main_arg7)) := by
  show StableHlo.after hostOps2 (W4 m ρ c) (Proc.devRef .tc main_arg7) = _
  after_results_simp
  exact at4_arg7 m ρ c

/-- The third bias, untouched by this stretch. -/
theorem at5_arg8 (c : Dev nD) : W5 m ρ c (Proc.devRef .tc main_arg8) = (m ((c : Thread nD τ).loc main_arg8)) := by
  show StableHlo.after hostOps2 (W4 m ρ c) (Proc.devRef .tc main_arg8) = _
  after_results_simp
  exact at4_arg8 m ρ c

/-- The edges' source nodes, untouched by this stretch. -/
theorem at5_v1 (c : Dev nD) : W5 m ρ c (Proc.devRef .tc main_v1) = val_main_v1 (F := Ideal) (m ((c : Thread nD τ).loc main_arg2)) := by
  show StableHlo.after hostOps2 (W4 m ρ c) (Proc.devRef .tc main_v1) = _
  after_results_simp
  exact at4_v1 m ρ c

/-- The edges' destination nodes, untouched by this stretch. -/
theorem at5_v3 (c : Dev nD) : W5 m ρ c (Proc.devRef .tc main_v3) = val_main_v3 (F := Ideal) (m ((c : Thread nD τ).loc main_arg2)) := by
  show StableHlo.after hostOps2 (W4 m ρ c) (Proc.devRef .tc main_v3) = _
  after_results_simp
  exact at4_v3 m ρ c

/-- The per-edge coefficients, untouched by this stretch. -/
theorem at5_v26 (c : Dev nD) : W5 m ρ c (Proc.devRef .tc main_v26) = val_main_v26 (F := Ideal) (m ((c : Thread nD τ).loc main_arg2)) := by
  show StableHlo.after hostOps2 (W4 m ρ c) (Proc.devRef .tc main_v26) = _
  after_results_simp
  exact at4_v26 m ρ c

/-- The squared inverse root degrees, untouched by this stretch. -/
theorem at5_v11 (c : Dev nD) : W5 m ρ c (Proc.devRef .tc main_v11) = val_main_v40 (F := Ideal) (m ((c : Thread nD τ).loc main_arg2)) := by
  show StableHlo.after hostOps2 (W4 m ρ c) (Proc.devRef .tc main_v11) = _
  after_results_simp
  exact at4_v11 m ρ c

/-! ## After the fused call -/

/-- The sum of the two rectified convolutions, what this call's write-backs leave. -/
theorem at6_v58 (c : Dev nD) : W6 m ρ c (Proc.devRef .tc main_v58) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 7).trans ((Fused.final (V5 m ρ) c).trans ?_)
  dsimp only [V5]
  rw [at5_v40 m ρ c, at5_v27 m ρ c, at5_v55 m ρ c, at5_v54 m ρ c, at5_v41 m ρ c, at5_v56 m ρ c, at5_v57 m ρ c]
  exact RefEntry.fused_ref _ _ _ _ _ _ _

/-- The hidden weights, not an array of this call. -/
theorem at6_arg7 (c : Dev nD) : W6 m ρ c (Proc.devRef .tc main_arg7) = (m ((c : Thread nD τ).loc main_arg7)) :=
  (W6_of_ne m ρ c main_arg7 (by decide)).trans (at5_arg7 m ρ c)

/-- The third bias, not an array of this call. -/
theorem at6_arg8 (c : Dev nD) : W6 m ρ c (Proc.devRef .tc main_arg8) = (m ((c : Thread nD τ).loc main_arg8)) :=
  (W6_of_ne m ρ c main_arg8 (by decide)).trans (at5_arg8 m ρ c)

/-- The edges' source nodes, not an array of this call. -/
theorem at6_v1 (c : Dev nD) : W6 m ρ c (Proc.devRef .tc main_v1) = val_main_v1 (F := Ideal) (m ((c : Thread nD τ).loc main_arg2)) :=
  (W6_of_ne m ρ c main_v1 (by decide)).trans (at5_v1 m ρ c)

/-- The edges' destination nodes, not an array of this call. -/
theorem at6_v3 (c : Dev nD) : W6 m ρ c (Proc.devRef .tc main_v3) = val_main_v3 (F := Ideal) (m ((c : Thread nD τ).loc main_arg2)) :=
  (W6_of_ne m ρ c main_v3 (by decide)).trans (at5_v3 m ρ c)

/-- The per-edge coefficients, not an array of this call. -/
theorem at6_v26 (c : Dev nD) : W6 m ρ c (Proc.devRef .tc main_v26) = val_main_v26 (F := Ideal) (m ((c : Thread nD τ).loc main_arg2)) :=
  (W6_of_ne m ρ c main_v26 (by decide)).trans (at5_v26 m ρ c)

/-- The squared inverse root degrees, not an array of this call. -/
theorem at6_v11 (c : Dev nD) : W6 m ρ c (Proc.devRef .tc main_v11) = val_main_v40 (F := Ideal) (m ((c : Thread nD τ).loc main_arg2)) :=
  (W6_of_ne m ρ c main_v11 (by decide)).trans (at5_v11 m ρ c)

/-! ## After the third product -/

/-- The third transformed features, what this call's write-backs leave. -/
theorem at7_v59 (c : Dev nD) : W7 m ρ c (Proc.devRef .tc main_v59) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 2).trans ((Dense3.final (V6 m ρ) c).trans ?_)
  dsimp only [V6]
  rw [at6_v58 m ρ c, at6_arg7 m ρ c]
  rfl

/-- The third bias, not an array of this call. -/
theorem at7_arg8 (c : Dev nD) : W7 m ρ c (Proc.devRef .tc main_arg8) = (m ((c : Thread nD τ).loc main_arg8)) :=
  (W7_of_ne m ρ c main_arg8 (by decide)).trans (at6_arg8 m ρ c)

/-- The edges' source nodes, not an array of this call. -/
theorem at7_v1 (c : Dev nD) : W7 m ρ c (Proc.devRef .tc main_v1) = val_main_v1 (F := Ideal) (m ((c : Thread nD τ).loc main_arg2)) :=
  (W7_of_ne m ρ c main_v1 (by decide)).trans (at6_v1 m ρ c)

/-- The edges' destination nodes, not an array of this call. -/
theorem at7_v3 (c : Dev nD) : W7 m ρ c (Proc.devRef .tc main_v3) = val_main_v3 (F := Ideal) (m ((c : Thread nD τ).loc main_arg2)) :=
  (W7_of_ne m ρ c main_v3 (by decide)).trans (at6_v3 m ρ c)

/-- The per-edge coefficients, not an array of this call. -/
theorem at7_v26 (c : Dev nD) : W7 m ρ c (Proc.devRef .tc main_v26) = val_main_v26 (F := Ideal) (m ((c : Thread nD τ).loc main_arg2)) :=
  (W7_of_ne m ρ c main_v26 (by decide)).trans (at6_v26 m ρ c)

/-- The squared inverse root degrees, not an array of this call. -/
theorem at7_v11 (c : Dev nD) : W7 m ρ c (Proc.devRef .tc main_v11) = val_main_v40 (F := Ideal) (m ((c : Thread nD τ).loc main_arg2)) :=
  (W7_of_ne m ρ c main_v11 (by decide)).trans (at6_v11 m ρ c)

end Cert.KernelIdeal.Stage

end
-- ==== Proof.StageD.lean ====
/-
  The kernel program's buffers at the last two boundaries. The last stretch of host operations aggregates the third
  transformed features along the edges as before (the reference's third recomputation of the per-edge coefficients is
  again the same array) and reshapes the third bias to a row and the squared inverse root degrees to a column; the
  closing call then leaves, entry by entry, the reference's result.
-/
import proofs.«169853_j89249420411436_1_alg».proof.Proof.StageC
import proofs.«169853_j89249420411436_1_alg».proof.Proof.Closing
import proofs.«169853_j89249420411436_1_alg».proof.Proof.RefEntry
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the last stretch of host operations -/

set_option maxHeartbeats 1000000 in
/-- The third aggregated messages, computed by this stretch from buffers already read. -/
theorem at8_v72 (c : Dev nD) : W8 m ρ c (Proc.devRef .tc main_v72) = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W7 m ρ c) (Proc.devRef .tc main_v72) = _
  after_results_simp
  simp only [at7_v59 m ρ c, at7_v1 m ρ c, at7_v3 m ρ c, at7_v26 m ρ c]
  rfl

/-- The third bias as a row, computed by this stretch from buffers already read. -/
theorem at8_v73 (c : Dev nD) : W8 m ρ c (Proc.devRef .tc main_v73) = shapeCast S1x64 (m ((c : Thread nD τ).loc main_arg8)) shapeCasts_S64_S1x64 := by
  show StableHlo.after hostOps4 (W7 m ρ c) (Proc.devRef .tc main_v73) = _
  after_results_simp
  simp only [at7_arg8 m ρ c]
  rfl

/-- The squared inverse root degrees as a column, computed by this stretch from buffers already read. -/
theorem at8_v74 (c : Dev nD) : W8 m ρ c (Proc.devRef .tc main_v74) = shapeCast S50000x1 (val_main_v40 (F := Ideal) (m ((c : Thread nD τ).loc main_arg2))) shapeCasts_S50000_S50000x1 := by
  show StableHlo.after hostOps4 (W7 m ρ c) (Proc.devRef .tc main_v74) = _
  after_results_simp
  simp only [at7_v11 m ρ c]
  rfl

/-- The third transformed features, untouched by this stretch. -/
theorem at8_v59 (c : Dev nD) : W8 m ρ c (Proc.devRef .tc main_v59) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W7 m ρ c) (Proc.devRef .tc main_v59) = _
  after_results_simp
  exact at7_v59 m ρ c

/-! ## After the closing call: the result -/

/-- The result, what this call's write-backs leave. -/
theorem at9_v75 (c : Dev nD) : W9 m ρ c (Proc.devRef .tc main_v75) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 4).trans ((Closing.final (V8 m ρ) c).trans ?_)
  dsimp only [V8]
  rw [at8_v72 m ρ c, at8_v59 m ρ c, at8_v73 m ρ c, at8_v74 m ρ c]
  exact RefEntry.closing_ref _ _ _ _ _ _ _ _ _

end Cert.KernelIdeal.Stage

end
-- ==== Proof.lean ====
/-
  The certificate of a three-layer graph convolution network: the kernel program computes each convolution's dense
  transform  x · W  in a pipelined call over blocks of 2000 rows (operands rounded to bf16, accumulated in f32) and
  closes the convolutions in two more pipelined calls — a fused one that closes, rectifies and adds the first two, and
  one that closes the third —, with the degree normalisation and the gather / scatter-addition along the 1.6 million
  edges as host operations in between; the reference does everything with host operations, once per convolution.

  At extended-real values (every float operation exact, every change of format the identity) the two programs are the
  same function of the nine arguments: a blocked matrix product into a zero accumulator is the general dot product
  (the contracted axis is not split, so not even the order of the sum differs); the pipelined elementwise bodies are
  the reference's elementwise operations read entry by entry; every other operation is the same host operation applied
  to arrays already identified, the reference's three recomputations of the degree chain being one array. No law of
  arithmetic beyond these identifications is used, so the finiteness precondition is never opened.

  The frames of the two kernel programs are the generated ones; the reference's frame is its generated run with the
  result dropped; the idealization rewrote nothing, so there is nothing to preserve. For the value claim the kernel
  program's run names its result as the fold of the launch memory through the nine segments (Proof/WholeRun.lean), the
  stage modules identify that fold buffer by buffer with the reference's stages (Proof/StageA … StageD.lean, over the
  five calls' final arrays, Proof/Dense0, Dense1, Fused, Dense3, Closing.lean, and the reference's stages read at an
  entry, Proof/RefEntry.lean), and the reference's run ends at its last stage.
-/
import proofs.«169853_j89249420411436_1_alg».proof.Defs
import proofs.«169853_j89249420411436_1_alg».proof.Proof.Gen.Kernel
import proofs.«169853_j89249420411436_1_alg».proof.Proof.Gen.Kernel.Skeleton
import proofs.«169853_j89249420411436_1_alg».proof.Proof.Gen.Kernel.Launch
import proofs.«169853_j89249420411436_1_alg».proof.Proof.Gen.Kernel.Points
import proofs.«169853_j89249420411436_1_alg».proof.Proof.Gen.Kernel.Frame
import proofs.«169853_j89249420411436_1_alg».proof.Proof.Gen.KernelIdeal
import proofs.«169853_j89249420411436_1_alg».proof.Proof.Gen.KernelIdeal.Skeleton
import proofs.«169853_j89249420411436_1_alg».proof.Proof.Gen.KernelIdeal.Launch
import proofs.«169853_j89249420411436_1_alg».proof.Proof.Gen.KernelIdeal.Points
import proofs.«169853_j89249420411436_1_alg».proof.Proof.Gen.KernelIdeal.Frame
import proofs.«169853_j89249420411436_1_alg».proof.Proof.Gen.ReferenceIdeal
import proofs.«169853_j89249420411436_1_alg».proof.Proof.Gen.Pre_finite_inputs
import proofs.«169853_j89249420411436_1_alg».proof.Proof.Gen.ReferenceIdeal.Run
import proofs.«169853_j89249420411436_1_alg».proof.Proof.Gen.ReferenceIdeal.Read
import proofs.«169853_j89249420411436_1_alg».proof.Proof.WholeRun
import proofs.«169853_j89249420411436_1_alg».proof.Proof.StageD
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on the nine arguments, both programs end with the reference's last stage of those
    arguments in their result: the kernel program's by the stage facts, the reference's by its run. -/
theorem algebraic : Cert.algebraic_KernelIdeal_ReferenceIdeal := by
  intro m ρ m' ρ' _ hagree
  refine ⟨fun c => Cert.KernelIdeal.Gen.W9 m ρ c (Proc.devRef .tc Cert.KernelIdeal.main_v75), Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show _ = Cert.KernelIdeal.Gen.W9 m ρ c (Proc.devRef .tc Cert.KernelIdeal.main_v75)
  rw [Cert.ReferenceIdeal.Read.val_main_v138_eq, Cert.KernelIdeal.Stage.at9_v75 m ρ c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
